-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S_ : Shape := ⟨0, ![]⟩
abbrev S8192x4096 : Shape := ⟨2, ![8192, 4096]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 42
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S4096x4096, .f32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .bf16⟩
  | .hbm, ⟨38, _⟩ => ⟨S8192x4096, .f32⟩
  | .hbm, ⟨39, _⟩ => ⟨S8192x4096, .bf16⟩
  | .hbm, ⟨40, _⟩ => ⟨S8192x4096, .f32⟩
  | .hbm, ⟨41, _⟩ => ⟨S4x2048x4096, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_cst_3 : Ref sig .tc := ⟨.hbm, 11, rfl⟩
abbrev main_v5 : Ref sig .tc := ⟨.hbm, 12, rfl⟩
abbrev main_v6 : Ref sig .tc := ⟨.hbm, 13, rfl⟩
abbrev main_cst_4 : Ref sig .tc := ⟨.hbm, 14, rfl⟩
abbrev main_v7 : Ref sig .tc := ⟨.hbm, 15, rfl⟩
abbrev main_v8 : Ref sig .tc := ⟨.hbm, 16, rfl⟩
abbrev main_cst_5 : Ref sig .tc := ⟨.hbm, 17, rfl⟩
abbrev main_cst_6 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_7 : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_8 : Ref sig .tc := ⟨.hbm, 29, rfl⟩
abbrev main_cst_9 : Ref sig .tc := ⟨.hbm, 30, rfl⟩
abbrev main_call3_v0 : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  bitsLt_bf16_f32 : FTy.bits .bf16 < FTy.bits .f32
  shapeCasts_S4x2048x4096_S8192x4096 : S4x2048x4096.ShapeCasts S8192x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S8192x4096_S4x2048x4096 : S8192x4096.ShapeCasts S4x2048x4096
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x4096.size a
  hwx0_2 : ∀ i : grid0.Coords, EltTy.bits .f32 = 32 ∨ (Rect.block (s := S8192x4096) S1024x2048.size (cc0_transform_2 i) (hinb0_2 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v18) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S4096x4096, .f32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_cst_3 : Ref sig .tc := ⟨.hbm, 11, rfl⟩
abbrev main_v5 : Ref sig .tc := ⟨.hbm, 12, rfl⟩
abbrev main_v6 : Ref sig .tc := ⟨.hbm, 13, rfl⟩
abbrev main_cst_4 : Ref sig .tc := ⟨.hbm, 14, rfl⟩
abbrev main_v7 : Ref sig .tc := ⟨.hbm, 15, rfl⟩
abbrev main_v8 : Ref sig .tc := ⟨.hbm, 16, rfl⟩
abbrev main_cst_5 : Ref sig .tc := ⟨.hbm, 17, rfl⟩
abbrev main_cst_6 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_7 : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_8 : Ref sig .tc := ⟨.hbm, 29, rfl⟩
abbrev main_cst_9 : Ref sig .tc := ⟨.hbm, 30, rfl⟩
abbrev main_call3_v0 : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibSums.lean ====
/-
  Two re-indexings of finite sums, over any commutative monoid.

  * A sum over the indices of a rank-4 shape whose first two coordinates are fixed (the indices a reduction over
    the two trailing axes sends to one result index) is the double sum over the two trailing coordinates.
  * A sum over `Fin N` with `N = T * R` is the sum over `T` tiles of the sum over the `R` positions inside a tile,
    position `r` of tile `t` being `R * t + r`.
-/
import Idealize.ShloMosaic.Lib.ValueIdx
import Idealize.ShloMosaic.PureOps.Reduce

noncomputable section

open scoped BigOperators

namespace Cert.LibSums

open Idealize.ShloMosaic Idealize.ShloMosaic.ValueIdx

/-- Position `r` of tile `t` lies below `T * R`. -/
theorem tile_lt {T R N : Nat} (hN : T * R = N) (t : Fin T) (r : Fin R) : R * t.val + r.val < N := by
  have h1 : R * t.val + r.val < R * (t.val + 1) := by rw [Nat.mul_succ]; exact Nat.add_lt_add_left r.isLt _
  have h2 : R * (t.val + 1) ≤ R * T := Nat.mul_le_mul_left R (Nat.succ_le_of_lt t.isLt)
  rw [← hN, Nat.mul_comm T R]; exact Nat.lt_of_lt_of_le h1 h2

/-- A sum over `N = T * R` positions, tile by tile. -/
theorem sum_by_tiles {M : Type*} [AddCommMonoid M] {T R N : Nat} (hN : T * R = N) (f : Fin N → M) :
    ∑ h : Fin N, f h = ∑ t : Fin T, ∑ r : Fin R, f ⟨R * t.val + r.val, tile_lt hN t r⟩ := by
  subst hN
  rw [← Equiv.sum_comp (finProdFinEquiv (m := T) (n := R)) f, Fintype.sum_prod_type]
  refine Finset.sum_congr rfl fun t _ => Finset.sum_congr rfl fun r _ => congrArg f (Fin.ext ?_)
  show r.val + R * t.val = R * t.val + r.val
  omega

/-- The indices of a rank-4 shape that a reduction over axes 2 and 3 sends to `(p, q)`, summed, are the two
    trailing coordinates, summed. -/
theorem sum_filter_drop_last2 {M : Type*} [AddCommMonoid M] {n0 n1 A B : Nat}
    (h : (⟨4, ![n0, n1, A, B]⟩ : Shape).Reduces [2, 3] ⟨2, ![n0, n1]⟩)
    (x : (⟨4, ![n0, n1, A, B]⟩ : Shape).Idx → M) (p : Fin n0) (q : Fin n1) :
    ∑ i ∈ Finset.univ.filter (fun i => h.drop i = ix2 p q), x i = ∑ a : Fin A, ∑ b : Fin B, x (ix4 p q a b) := by
  have hd0 : ∀ i, ((h.drop i 0 : Fin n0) : Nat) = ((i 0 : Fin n0) : Nat) := fun i => rfl
  have hd1 : ∀ i, ((h.drop i 1 : Fin n1) : Nat) = ((i 1 : Fin n1) : Nat) := fun i => rfl
  rw [← Finset.sum_product']
  refine Finset.sum_nbij' (fun i => ((i 2 : Fin A), (i 3 : Fin B))) (fun ab => ix4 p q ab.1 ab.2) ?_ ?_ ?_ ?_ ?_
  · intro i _; exact Finset.mem_product.2 ⟨Finset.mem_univ _, Finset.mem_univ _⟩
  · intro ab _
    refine Finset.mem_filter.2 ⟨Finset.mem_univ _, funext fun b => Fin.ext ?_⟩
    match b with
    | ⟨0, _⟩ => exact hd0 _
    | ⟨1, _⟩ => exact hd1 _
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show ix4 p q (i 2) (i 3) = i
    rw [← e0, ← e1]; exact (eq_ix4 i).symm
  · intro ab _; rfl
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show x i = x (ix4 p q (i 2) (i 3))
    rw [← e0, ← e1]; exact congrArg x (eq_ix4 i)

end Cert.LibSums

end
-- ==== Proof.Spec.lean ====
/-
  A linear layer against a quantized weight, as ONE function of its arrays, and the one law the two programs
  differ by.

  For an activation array `x` of shape (4, 2048, 4096) and a weight array `w` of shape (4096, 4096) — here the
  weight is the ternary quantization of the argument, but nothing below looks inside it — the layer is

      out[b, s, o] = ∑ i < 4096, x[b, s, i] * w[o, i]            (`linear`),

  and on the flattened activations (8192 rows, row `2048 * b + s`)

      flat[r, o]   = ∑ i < 4096, a[r, i] * w[o, i]               (`rowsDot`).

  One program takes the sum over `i` at once; the other sweeps the contraction axis in 8 blocks of 512 columns and
  adds each block's partial sum to a running total that starts at zero. The extended reals are a commutative monoid
  under addition, so the total after all 8 blocks is the whole sum (`sum_kblock`): no finiteness is needed.
-/
import Idealize.ShloMosaic.Lib.ValueIdx
import Idealize.ShloMosaic.PureOps.Ideal
import proofs.«118551_j60679297958512_2_alg».proof.Proof.LibSums

noncomputable section

open scoped BigOperators

namespace Cert.QuantLinear

open Idealize.ShloMosaic Idealize.ShloMosaic.ValueIdx

/-- The layer: entry (b, s, o) is the dot product of row (b, s) of `x` with row `o` of `w`. -/
def linear (x : (⟨3, ![4, 2048, 4096]⟩ : Shape).Idx → EReal) (w : (⟨2, ![4096, 4096]⟩ : Shape).Idx → EReal) :
    (⟨3, ![4, 2048, 4096]⟩ : Shape).Idx → EReal :=
  fun i => ∑ k : Fin 4096, x (ix3 (i 0) (i 1) k) * w (ix2 (i 2) k)

/-- The products summed for row `r` of the flattened activations `a` against row `o` of `w`. -/
def products (a : (⟨2, ![8192, 4096]⟩ : Shape).Idx → EReal) (w : (⟨2, ![4096, 4096]⟩ : Shape).Idx → EReal)
    (r : Fin 8192) (o : Fin 4096) : Fin 4096 → EReal :=
  fun k => a (ix2 r k) * w (ix2 o k)

/-- The same layer on flattened activations: entry (r, o) is the sum of those products. -/
def rowsDot (a : (⟨2, ![8192, 4096]⟩ : Shape).Idx → EReal) (w : (⟨2, ![4096, 4096]⟩ : Shape).Idx → EReal) :
    (⟨2, ![8192, 4096]⟩ : Shape).Idx → EReal :=
  fun j => ∑ k : Fin 4096, products a w (j 0) (j 1) k

/-- Row `p` of row block `bi` of the flattened activations (8 blocks of 1024 rows). -/
abbrev blockRow (bi : Fin 8) (p : Fin 1024) : Fin 8192 :=
  ⟨1024 * bi.val + p.val, by have := bi.isLt; have := p.isLt; omega⟩

/-- Row `q` of row block `bj` of the weight (2 blocks of 2048 rows): an output column. -/
abbrev blockCol (bj : Fin 2) (q : Fin 2048) : Fin 4096 :=
  ⟨2048 * bj.val + q.val, by have := bj.isLt; have := q.isLt; omega⟩

/-- Column `kk` of contraction block `kb` (8 blocks of 512 columns). -/
abbrev kpos (kb : Fin 8) (kk : Fin 512) : Fin 4096 :=
  ⟨512 * kb.val + kk.val, Cert.LibSums.tile_lt (T := 8) (R := 512) (N := 4096) rfl kb kk⟩

/-- Block `kb`'s partial sum of a family indexed by the contraction axis; zero past the last block. -/
def kblock (f : Fin 4096 → EReal) (kb : ℕ) : EReal :=
  if h : kb < 8 then ∑ kk : Fin 512, f (kpos ⟨kb, h⟩ kk) else 0

theorem kblock_of_lt (f : Fin 4096 → EReal) (kb : ℕ) (h : kb < 8) :
    kblock f kb = ∑ kk : Fin 512, f (kpos ⟨kb, h⟩ kk) := dif_pos h

/-- The eight blocks' partial sums add up to the whole sum. -/
theorem sum_kblock (f : Fin 4096 → EReal) : ∑ kb ∈ Finset.range 8, kblock f kb = ∑ k : Fin 4096, f k := by
  rw [Finset.sum_range, Cert.LibSums.sum_by_tiles (T := 8) (R := 512) (N := 4096) rfl f]
  exact Finset.sum_congr rfl fun t _ => kblock_of_lt f t.val t.isLt

/-- The running total after blocks `0 … j`: one more block added to the total after blocks `0 … j - 1`. -/
theorem sum_kblock_succ (f : Fin 4096 → EReal) (j : ℕ) :
    ∑ kb ∈ Finset.range (j + 1), kblock f kb = ∑ kb ∈ Finset.range j, kblock f kb + kblock f j :=
  Finset.sum_range_succ _ _

end Cert.QuantLinear

end
-- ==== Proof.Payload.lean ====
/-
  The kernel body's arithmetic, read at an index over the extended reals.

  The body computes one value per grid point: the carried total plus the product of the point's two input blocks,
  the (1024 × 512) block `a` of the activations against the (2048 × 512) block `b` of the weight, contracted
  along their second axes into a zero accumulator. At entry (p, q) that is

      carried[p, q] + ∑ kk < 512, a[p, kk] * b[q, kk].

  The block it stores at a point that starts a sweep is the zero block.
-/
import proofs.«118551_j60679297958512_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- At every instance the stored value is the carried block plus the matrix product into the zero accumulator:
    the three shape casts are casts to the same shape. -/
theorem pay2_eq {F : FTy → Type} [FloatOps F] (v3 : Vec F S1024x2048 .f32) (v4 : Vec F S1024x512 .bf16)
    (v6 : Vec F S2048x512 .bf16) :
    k0_pay2 v3 v4 v6 = addf v3 (matmul dot_S1024x512_S2048x512_S1024x2048_1_1_0_0_n_n none v4 v6 (constant S1024x2048 .f32 0x00000000#32)) := by
  unfold k0_pay2
  simp only [shapeCast_self]

/-- The block stored when a sweep starts is the splat of the zero word. -/
theorem pay1_eq {F : FTy → Type} [FloatOps F] :
    k0_pay1 (F := F) = broadcast S1024x2048 (Scalar.ofBits .f32 0x00000000#32) := by
  unfold k0_pay1
  simp only [shapeCast_self]

/-- Over the extended reals that block is zero everywhere. -/
theorem pay1_apply (y : S1024x2048.Idx) : k0_pay1 (F := Ideal) y = 0 := by
  rw [pay1_eq]
  show Ideal.ofBits .f32 0x00000000#32 = 0
  exact Ideal.ofBits_zero_f32

/-- The left operand of the product at output entry `j` and contraction position `k` is at row `j 0` … -/
theorem lhs_row (j : S1024x2048.Idx) (k : dot_S1024x512_S2048x512_S1024x2048_1_1_0_0_n_n.contr.Idx) :
    (dot_S1024x512_S2048x512_S1024x2048_1_1_0_0_n_n.lhsIdx j k 0).val = (j 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl
/-- … and column `k`; -/
theorem lhs_col (j : S1024x2048.Idx) (k : dot_S1024x512_S2048x512_S1024x2048_1_1_0_0_n_n.contr.Idx) :
    (dot_S1024x512_S2048x512_S1024x2048_1_1_0_0_n_n.lhsIdx j k 1).val = (k ⟨0, by decide⟩).val :=
  dot_S1024x512_S2048x512_S1024x2048_1_1_0_0_n_n.lhsIdx_val_of_single rfl j k
/-- the right operand is at row `j 1` … -/
theorem rhs_row (j : S1024x2048.Idx) (k : dot_S1024x512_S2048x512_S1024x2048_1_1_0_0_n_n.contr.Idx) :
    (dot_S1024x512_S2048x512_S1024x2048_1_1_0_0_n_n.rhsIdx j k 0).val = (j 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl
/-- … and column `k`. -/
theorem rhs_col (j : S1024x2048.Idx) (k : dot_S1024x512_S2048x512_S1024x2048_1_1_0_0_n_n.contr.Idx) :
    (dot_S1024x512_S2048x512_S1024x2048_1_1_0_0_n_n.rhsIdx j k 1).val = (k ⟨0, by decide⟩).val :=
  dot_S1024x512_S2048x512_S1024x2048_1_1_0_0_n_n.rhsIdx_val_of_single rfl j k

/-- The stored value at entry (p, q), over the extended reals: the carried entry plus the dot product of row `p` of
    the activations' block with row `q` of the weight's block. -/
theorem pay2_apply (v3 : Vec Ideal S1024x2048 .f32) (v4 : Vec Ideal S1024x512 .bf16) (v6 : Vec Ideal S2048x512 .bf16)
    (p : Fin 1024) (q : Fin 2048) :
    k0_pay2 (F := Ideal) v3 v4 v6 (ix2 p q) = v3 (ix2 p q) + ∑ kk : Fin 512, v4 (ix2 p kk) * v6 (ix2 q kk) := by
  rw [pay2_eq]
  show v3 (ix2 p q) + FloatOps.matmul (F := Ideal) dot_S1024x512_S2048x512_S1024x2048_1_1_0_0_n_n none v4 v6 (constant (F := Ideal) S1024x2048 .f32 0x00000000#32) (ix2 p q) = _
  rw [Ideal.matmul_constant_zero_apply,
    ← Equiv.sum_comp (contrEquiv1 dot_S1024x512_S2048x512_S1024x2048_1_1_0_0_n_n 512 rfl rfl).symm]
  refine congrArg (v3 (ix2 p q) + ·) (Finset.sum_congr rfl fun kk _ => ?_)
  have hk := contrEquiv1_symm_val dot_S1024x512_S2048x512_S1024x2048_1_1_0_0_n_n 512 rfl rfl kk
  have el : dot_S1024x512_S2048x512_S1024x2048_1_1_0_0_n_n.lhsIdx (ix2 p q) ((contrEquiv1 dot_S1024x512_S2048x512_S1024x2048_1_1_0_0_n_n 512 rfl rfl).symm kk) = ix2 p kk :=
    funext fun a => Fin.ext (by
      match a with
      | ⟨0, _⟩ => exact lhs_row _ _
      | ⟨1, _⟩ => exact (lhs_col _ _).trans hk)
  have er : dot_S1024x512_S2048x512_S1024x2048_1_1_0_0_n_n.rhsIdx (ix2 p q) ((contrEquiv1 dot_S1024x512_S2048x512_S1024x2048_1_1_0_0_n_n 512 rfl rfl).symm kk) = ix2 q kk :=
    funext fun a => Fin.ext (by
      match a with
      | ⟨0, _⟩ => exact rhs_row _ _
      | ⟨1, _⟩ => exact (rhs_col _ _).trans hk)
  rw [el, er]

end Cert.KernelIdeal.Payload

end
-- ==== Proof.Pieces.lean ====
/-
  What one run of the body leaves behind, case by case, at any instance.

  The body reads the carried total from the scratch buffer, reads the point's two input blocks, and stores
  "total + product" back into the scratch. At the first point of a sweep it stores the zero block first, so the
  total it then reads is that zero block. At the last point of a sweep it also copies what it just stored into the
  output block. Every load and store is of a whole buffer, so what is left is exactly the stored value.
-/
import proofs.«118551_j60679297958512_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL.Sem

variable {F : FTy → Type} [FloatOps F]

theorem hz : (![0, 0] : Fin 2 → Nat) = fun _ => 0 := funext fun a => by fin_cases a <;> rfl

/-- A middle point of a sweep leaves, in the scratch holding `xs0`, the body's value of `xs0` and the two blocks. -/
theorem scratch_B (c : Dev nD) (i : grid0.Coords) (arg3 : Memref sig .tc .vmem S1024x512 .bf16) (harg3 : arg3.IsWhole)
    (arg4 : Memref sig .tc .vmem S2048x512 .bf16) (harg4 : arg4.IsWhole) (arg5 : Memref sig .tc .vmem S1024x2048 .f32)
    (harg5 : arg5.IsWhole) (arg6 : Memref sig .tc .vmem S1024x2048 .f32) (harg6 : arg6.IsWhole) (hc0 : ¬cond0_0 i) (hc1 : ¬cond0_1 i)
    (x0 : Vec F S1024x512 .bf16) (x1 : Vec F S2048x512 .bf16) (xs0 : Vec F S1024x2048 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero hz]
  simp only [View.readAt_eq_ld, harg3.read_unread, harg4.read_unread, harg6.read_unread,
    View.ld_unit_zero (S := S1024x512) hz, View.ld_unit_zero (S := S2048x512) hz, View.ld_unit_zero (S := S1024x2048) hz]

/-- The last point of a sweep leaves the same value in the scratch … -/
theorem scratch_C (c : Dev nD) (i : grid0.Coords) (arg3 : Memref sig .tc .vmem S1024x512 .bf16) (harg3 : arg3.IsWhole)
    (arg4 : Memref sig .tc .vmem S2048x512 .bf16) (harg4 : arg4.IsWhole) (arg5 : Memref sig .tc .vmem S1024x2048 .f32)
    (harg5 : arg5.IsWhole) (arg6 : Memref sig .tc .vmem S1024x2048 .f32) (harg6 : arg6.IsWhole) (hc0 : ¬cond0_0 i) (hc1 : cond0_1 i)
    (x0 : Vec F S1024x512 .bf16) (x1 : Vec F S2048x512 .bf16) (xs0 : Vec F S1024x2048 .f32) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero (S := S1024x2048) hz]
  simp only [View.readAt_eq_ld, harg3.read_unread, harg4.read_unread, harg6.read_unread,
    View.ld_unit_zero (S := S1024x512) hz, View.ld_unit_zero (S := S2048x512) hz, View.ld_unit_zero (S := S1024x2048) hz]

/-- … and copies it into the output block: the copy is a load of what was just stored. -/
theorem out_C (c : Dev nD) (i : grid0.Coords) (arg3 : Memref sig .tc .vmem S1024x512 .bf16) (harg3 : arg3.IsWhole)
    (arg4 : Memref sig .tc .vmem S2048x512 .bf16) (harg4 : arg4.IsWhole) (arg5 : Memref sig .tc .vmem S1024x2048 .f32)
    (harg5 : arg5.IsWhole) (arg6 : Memref sig .tc .vmem S1024x2048 .f32) (harg6 : arg6.IsWhole) (hc0 : ¬cond0_0 i) (hc1 : cond0_1 i)
    (x0 : Vec F S1024x512 .bf16) (x1 : Vec F S2048x512 .bf16) (xs0 : Vec F S1024x2048 .f32) :
    out0_C_2 c i arg3 harg3 arg4 harg4 arg5 harg5 arg6 harg6 hc0 hc1 x0 x1 xs0 = k0_pay2 xs0 x0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero (S := S1024x2048) hz, View.readCov_unit_zero (S := S1024x2048) _ hz]
  simp only [View.readAt_eq_ld, harg3.read_unread, harg4.read_unread, harg6.read_unread,
    View.ld_unit_zero (S := S1024x512) hz, View.ld_unit_zero (S := S2048x512) hz, View.ld_unit_zero (S := S1024x2048) hz]

/-- The first point of a sweep stores the zero block, reads it back as the carried total, and leaves the body's
    value of that zero block and the two blocks. -/
theorem scratch_A (c : Dev nD) (i : grid0.Coords) (arg3 : Memref sig .tc .vmem S1024x512 .bf16) (harg3 : arg3.IsWhole)
    (arg4 : Memref sig .tc .vmem S2048x512 .bf16) (harg4 : arg4.IsWhole) (arg5 : Memref sig .tc .vmem S1024x2048 .f32)
    (harg5 : arg5.IsWhole) (arg6 : Memref sig .tc .vmem S1024x2048 .f32) (harg6 : arg6.IsWhole) (hc0 : cond0_0 i) (hc1 : ¬cond0_1 i)
    (x0 : Vec F S1024x512 .bf16) (x1 : Vec F S2048x512 .bf16) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x2048) hz, View.readCov_unit_zero (S := S1024x2048) _ hz]
  simp only [View.readAt_eq_ld, harg3.read_unread, harg4.read_unread,
    View.ld_unit_zero (S := S1024x512) hz, View.ld_unit_zero (S := S2048x512) hz, View.ld_unit_zero (S := S1024x2048) hz]

end Cert.KernelIdeal.Pieces

end
-- ==== Proof.Accum.lean ====
/-
  The running total across a sweep of the contraction axis.

  The grid has 8 × 2 × 8 points, the last coordinate fastest: point `n` works on row block `n / 16` of the flattened
  activations, row block `(n / 8) % 2` of the weight, and contraction block `n % 8`. Within a sweep (fixed `n / 8`)
  the scratch buffer carries a running total: the first point stores the product of its blocks over a zero block,
  every later point adds the product of its blocks. So after point `n` the scratch holds, at entry (p, q), the sum
  over contraction blocks `0 … n % 8` of the partial dot products of activation row `1024 * (n / 16) + p` with
  weight row `2048 * ((n / 8) % 2) + q`; and the last point of the sweep hands that total to the output block.
-/
import proofs.«118551_j60679297958512_2_alg».proof.Proof.Spec
import proofs.«118551_j60679297958512_2_alg».proof.Proof.Payload
import proofs.«118551_j60679297958512_2_alg».proof.Proof.Pieces

set_option maxRecDepth 16384

noncomputable section

open scoped BigOperators

namespace Cert.KernelIdeal.Accum

open Cert.KernelIdeal Cert.KernelIdeal.Gen Idealize.ShloMosaic Idealize.ShloMosaic.TcCoe Idealize.ShloMosaic.ValueIdx
open Idealize.SL.Sem Cert.QuantLinear

/-! ## The windows' blocks, by the point's number -/

/-- The activations' window is at row block `n / 16`, contraction block `n % 8`. -/
theorem index_acts : ∀ t : Fin cfg0.N, win0_0.index t (0 : Fin 2) = t.val / 16 ∧ win0_0.index t (1 : Fin 2) = t.val % 8 :=
  (by decide +kernel : ∀ t : Fin grid0.N, win0_0.index t (0 : Fin 2) = t.val / 16 ∧ win0_0.index t (1 : Fin 2) = t.val % 8)

/-- The weight's window is at row block `(n / 8) % 2`, contraction block `n % 8`. -/
theorem index_weight : ∀ t : Fin cfg0.N, win0_1.index t (0 : Fin 2) = t.val / 8 % 2 ∧ win0_1.index t (1 : Fin 2) = t.val % 8 :=
  (by decide +kernel : ∀ t : Fin grid0.N, win0_1.index t (0 : Fin 2) = t.val / 8 % 2 ∧ win0_1.index t (1 : Fin 2) = t.val % 8)

section AnyInstance

variable {F : FTy → Type} [FloatOps F]
variable (m : (ℓ : Loc nD τ sig) → Buf (Elt F) ℓ)

/-- Entry (p, kk) of the activations' block at a point is entry (1024 * bi + p, 512 * kb + kk) of the array. -/
theorem actsBlock_apply (c : Dev nD) (t : Fin cfg0.N) (bi kb : Fin 8) (h1 : t.val / 16 = bi.val) (h2 : t.val % 8 = kb.val)
    (p : Fin 1024) (kk : Fin 512) :
    (iblk m c 0 t : Vec F S1024x512 .bf16) (ix2 p kk) = V m c main_v18 (ix2 (blockRow bi p) (kpos kb kk)) := by
  have hi := index_acts t
  unfold iblk
  rw [View.read_apply]
  show V m c main_v18 _ = V m c main_v18 _
  congr 1
  funext a
  apply Fin.ext
  match a with
  | ⟨0, _⟩ => show win0_0.index t 0 * 1024 + 1 * p.val = 1024 * bi.val + p.val; rw [hi.1, h1]; omega
  | ⟨1, _⟩ => show win0_0.index t 1 * 512 + 1 * kk.val = 512 * kb.val + kk.val; rw [hi.2, h2]; omega

/-- Entry (q, kk) of the weight's block at a point is entry (2048 * bj + q, 512 * kb + kk) of the array. -/
theorem weightBlock_apply (c : Dev nD) (t : Fin cfg0.N) (bj : Fin 2) (kb : Fin 8) (h1 : t.val / 8 % 2 = bj.val) (h2 : t.val % 8 = kb.val)
    (q : Fin 2048) (kk : Fin 512) :
    (iblk m c 1 t : Vec F S2048x512 .bf16) (ix2 q kk) = V m c main_v16 (ix2 (blockCol bj q) (kpos kb kk)) := by
  have hi := index_weight t
  unfold iblk
  rw [View.read_apply]
  show V m c main_v16 _ = V m c main_v16 _
  congr 1
  funext a
  apply Fin.ext
  match a with
  | ⟨0, _⟩ => show win0_1.index t 0 * 2048 + 1 * q.val = 2048 * bj.val + q.val; rw [hi.1, h1]; omega
  | ⟨1, _⟩ => show win0_1.index t 1 * 512 + 1 * kk.val = 512 * kb.val + kk.val; rw [hi.2, h2]; omega

/-! ## What the scratch holds after a point, from what it held before -/

/-- After the first point of a sweep: the body's value over the zero block. -/
theorem scratch_first (c : Dev nD) (t : Fin cfg0.N) (h0 : t.val % 8 = 0) :
    (outsAt0 m c t.val t.isLt).2 = k0_pay2 k0_pay1 (iblk m c 0 t) (iblk m c 1 t) := by
  have h1 : ¬t.val % 8 = 7 := by omega
  rw [outsAt0_A m c t h0 h1]
  dsimp only
  exact Pieces.scratch_A (F := F) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- After any later point: the body's value over what the point before left. -/
theorem scratch_next (c : Dev nD) (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    dsimp only
    exact Pieces.scratch_C (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2
  · rw [outsAt0_B m c t h0 h1]
    dsimp only
    exact Pieces.scratch_B (F := F) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- At the last point of a sweep the output block is handed the same value the scratch is left with. -/
theorem out_last (c : Dev nD) (t : Fin cfg0.N) (h1 : t.val % 8 = 7) :
    (outsAt0 m c t.val t.isLt).1 = k0_pay2 (outsAt0 m c (t.val - 1) (Nat.lt_of_le_of_lt (Nat.sub_le _ _) t.isLt)).2 (iblk m c 0 t) (iblk m c 1 t) := by
  have h0 : ¬t.val % 8 = 0 := by omega
  rw [outsAt0_C m c t h0 h1]
  dsimp only
  exact Pieces.out_C (F := F) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

end AnyInstance

/-! ## The running total, over the extended reals -/

/-- One step of the sweep at entry (p, q), over any blocks: if the two blocks are rows `r` and `o` of two arrays
    restricted to contraction block `kb`, the body adds that block's partial dot product to the carried entry. -/
theorem step_apply (A : (⟨2, ![8192, 4096]⟩ : Shape).Idx → EReal) (B : (⟨2, ![4096, 4096]⟩ : Shape).Idx → EReal)
    (carried : Vec Ideal S1024x2048 .f32) (x0 : Vec Ideal S1024x512 .bf16) (x1 : Vec Ideal S2048x512 .bf16)
    (p : Fin 1024) (q : Fin 2048) (r : Fin 8192) (o : Fin 4096) (kb : ℕ) (hk : kb < 8)
    (hx0 : ∀ kk : Fin 512, x0 (ix2 p kk) = A (ix2 r (kpos ⟨kb, hk⟩ kk)))
    (hx1 : ∀ kk : Fin 512, x1 (ix2 q kk) = B (ix2 o (kpos ⟨kb, hk⟩ kk))) :
    k0_pay2 (F := Ideal) carried x0 x1 (ix2 p q) = carried (ix2 p q) + kblock (products A B r o) kb := by
  rw [Payload.pay2_apply, kblock_of_lt _ _ hk]
  refine congrArg (carried (ix2 p q) + ·) (Finset.sum_congr rfl fun kk _ => ?_)
  rw [hx0 kk, hx1 kk]
  rfl

variable (m : (ℓ : Loc nD τ sig) → Buf (Elt Ideal) ℓ)

/-- The step at point `t`, whose blocks are those of the arrays the kernel is launched on. -/
theorem step_at (c : Dev nD) (t : Fin cfg0.N) (bi : Fin 8) (bj : Fin 2) (h1 : t.val / 16 = bi.val) (h2 : t.val / 8 % 2 = bj.val)
    (carried : Vec Ideal S1024x2048 .f32) (p : Fin 1024) (q : Fin 2048) :
    k0_pay2 (F := Ideal) carried (iblk m c 0 t) (iblk m c 1 t) (ix2 p q)
      = carried (ix2 p q) + kblock (products (V m c main_v18) (V m c main_v16) (blockRow bi p) (blockCol bj q)) (t.val % 8) :=
  step_apply (V m c main_v18) (V m c main_v16) carried (iblk m c 0 t) (iblk m c 1 t) p q (blockRow bi p) (blockCol bj q)
    (t.val % 8) (Nat.mod_lt _ (by decide))
    (fun kk => actsBlock_apply m c t bi ⟨t.val % 8, Nat.mod_lt _ (by decide)⟩ h1 rfl p kk)
    (fun kk => weightBlock_apply m c t bj ⟨t.val % 8, Nat.mod_lt _ (by decide)⟩ h2 rfl q kk)

/-- THE RUNNING TOTAL: after point `n` the scratch holds, at (p, q), the sum of contraction blocks `0 … n % 8`. -/
theorem carried_apply (c : Dev nD) (n : ℕ) : ∀ (hn : n < cfg0.N) (bi : Fin 8) (bj : Fin 2), n / 16 = bi.val → n / 8 % 2 = bj.val →
    ∀ (p : Fin 1024) (q : Fin 2048),
      (outsAt0 m c n hn).2 (ix2 p q)
        = ∑ kb ∈ Finset.range (n % 8 + 1), kblock (products (V m c main_v18) (V m c main_v16) (blockRow bi p) (blockCol bj q)) kb := by
  have hN : cfg0.N = 128 := N_0
  induction n with
  | zero =>
    intro hn bi bj h1 h2 p q
    refine (congrFun (scratch_first m c ⟨0, hn⟩ rfl) (ix2 p q)).trans ?_
    refine (step_at m c ⟨0, hn⟩ bi bj h1 h2 (k0_pay1 (F := Ideal)) p q).trans ?_
    rw [Payload.pay1_apply, zero_add]
    show kblock _ 0 = ∑ kb ∈ Finset.range 1, kblock _ kb
    rw [Finset.sum_range_one]
  | succ n ih =>
    intro hn bi bj h1 h2 p q
    by_cases h0 : (n + 1) % 8 = 0
    · refine (congrFun (scratch_first m c ⟨n + 1, hn⟩ h0) (ix2 p q)).trans ?_
      refine (step_at m c ⟨n + 1, hn⟩ bi bj h1 h2 (k0_pay1 (F := Ideal)) p q).trans ?_
      rw [Payload.pay1_apply, zero_add]
      show kblock _ ((n + 1) % 8) = ∑ kb ∈ Finset.range ((n + 1) % 8 + 1), kblock _ kb
      rw [h0, Finset.sum_range_one]
    · refine (congrFun (scratch_next m c ⟨n + 1, hn⟩ h0) (ix2 p q)).trans ?_
      refine (step_at m c ⟨n + 1, hn⟩ bi bj h1 h2 (outsAt0 m c n (Nat.lt_of_succ_lt hn)).2 p q).trans ?_
      rw [ih (Nat.lt_of_succ_lt hn) bi bj (by omega) (by omega) p q]
      show _ + kblock _ ((n + 1) % 8) = _
      rw [show n % 8 + 1 = (n + 1) % 8 from by omega]
      exact (sum_kblock_succ _ _).symm

/-- At the last point of a sweep the output block holds the whole dot product. -/
theorem out_apply (c : Dev nD) (n : ℕ) (hn : n + 1 < cfg0.N) (h7 : (n + 1) % 8 = 7) (bi : Fin 8) (bj : Fin 2)
    (h1 : (n + 1) / 16 = bi.val) (h2 : (n + 1) / 8 % 2 = bj.val) (p : Fin 1024) (q : Fin 2048) :
    (outsAt0 m c (n + 1) hn).1 (ix2 p q)
      = ∑ k : Fin 4096, products (V m c main_v18) (V m c main_v16) (blockRow bi p) (blockCol bj q) k := by
  have hN : cfg0.N = 128 := N_0
  refine (congrFun (out_last m c ⟨n + 1, hn⟩ h7) (ix2 p q)).trans ?_
  refine (step_at m c ⟨n + 1, hn⟩ bi bj h1 h2 (outsAt0 m c n (Nat.lt_of_succ_lt hn)).2 p q).trans ?_
  rw [carried_apply m c n (Nat.lt_of_succ_lt hn) bi bj (by omega) (by omega) p q]
  show _ + kblock _ ((n + 1) % 8) = _
  rw [show n % 8 + 1 = (n + 1) % 8 from by omega, ← sum_kblock_succ, show (n + 1) % 8 + 1 = 8 from by omega, sum_kblock]

/-- The same at any entry `y` of the block. -/
theorem out_at (c : Dev nD) (n : ℕ) (hn : n + 1 < cfg0.N) (h7 : (n + 1) % 8 = 7) (bi : Fin 8) (bj : Fin 2)
    (h1 : (n + 1) / 16 = bi.val) (h2 : (n + 1) / 8 % 2 = bj.val) (y : S1024x2048.Idx) :
    (outsAt0 m c (n + 1) hn).1 y
      = ∑ k : Fin 4096, products (V m c main_v18) (V m c main_v16) (blockRow bi (y 0)) (blockCol bj (y 1)) k :=
  (congrArg (outsAt0 m c (n + 1) hn).1 (eq_ix2 y)).trans (out_apply m c n hn h7 bi bj h1 h2 (y 0) (y 1))

end Cert.KernelIdeal.Accum

end
-- ==== Proof.Inputs.lean ====
/-
  The two arrays the kernel is launched on, as functions of the program's arguments.

  Before the kernel the program flattens the activations `x` from (4, 2048, 4096) to (8192, 4096) rows and narrows
  them to bf16, and quantizes the weight and narrows it to bf16. Over the extended reals narrowing is the identity,
  so row `2048 * b + s` of the first array is row (b, s) of `x`, and the second array is the quantized weight itself
  — the same term of the weight argument that the reference computes, which is never opened here.
-/
import proofs.«118551_j60679297958512_2_alg».proof.Proof.Gen.KernelIdeal.Frame
import proofs.«118551_j60679297958512_2_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.Inputs

open Cert.KernelIdeal Cert.KernelIdeal.Gen Idealize.ShloMosaic Idealize.ShloMosaic.TcCoe Idealize.ShloMosaic.ValueIdx
open Idealize.SL.Sem Idealize.ShloMosaic.StableHlo

variable {F : FTy → Type} [FloatOps F]
variable (m : (ℓ : Loc nD τ sig) → Buf (Elt F) ℓ)

/-- The activations as the kernel finds them: the argument flattened, then narrowed. -/
theorem acts_eq (c : Dev nD) :
    (V m c main_v18 : S8192x4096.Idx → F .bf16)
      = truncf .bf16 (shapeCast S8192x4096 (m ((c : Thread nD τ).loc main_arg0)) shapeCasts_S4x2048x4096_S8192x4096) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results; rfl

set_option maxHeartbeats 4000000 in
/-- The weight as the kernel finds it: the quantization of the argument (the reference's own stage), then narrowed. -/
theorem weight_eq (c : Dev nD) :
    (V m c main_v16 : S4096x4096.Idx → F .bf16)
      = truncf .bf16 (Cert.ReferenceIdeal.Read.val_main_v15 (F := F) (m ((c : Thread nD τ).loc main_arg1))) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results; rfl

end Cert.KernelIdeal.Inputs

end
-- ==== Proof.Whole.lean ====
/-
  The kernel's result as one function of its arguments.

  A sweep's last point (the points `n` with `n % 8 = 7`) writes its output block back; by then the running total has
  taken in all 8 contraction blocks, which is the whole dot product. The written blocks are the (1024 × 2048) tiles
  of the (8192 × 4096) result: row block `n / 16`, column block `(n / 8) % 2`; every entry (r, o) lies in the tile
  written at point `16 * (r / 1024) + 8 * (o / 2048) + 7`. So the array the kernel leaves is
  `flat[r, o] = ∑ i, acts[r, i] * weight[o, i]`; the program then regroups its 8192 rows as (4, 2048), and with the
  activations the flattened argument and the weight the quantized argument this is the layer `linear`.
-/
import proofs.«118551_j60679297958512_2_alg».proof.Proof.Accum
import proofs.«118551_j60679297958512_2_alg».proof.Proof.Inputs
import Idealize.ShloMosaic.Lib.StableHlo.Run

set_option maxRecDepth 16384

noncomputable section

open scoped BigOperators

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo Cert.QuantLinear
open Idealize.ShloMosaic.Pipeline (Dat)

variable (m : (ℓ : Loc nD τ sig) → Buf (Elt Ideal) ℓ) (ρ : Dev nD → PrngReg)

/-- The quantized weight: the reference's own stage of the weight argument, never opened. -/
abbrev quantized (w : Cert.ReferenceIdeal.S4096x4096.Idx → EReal) : Cert.ReferenceIdeal.S4096x4096.Idx → EReal :=
  Cert.ReferenceIdeal.Read.val_main_v15 (F := Ideal) w

/-- What the kernel's result array ends holding: every row of the activations against every row of the weight. -/
abbrev flat (c : Dev nD) : Buf (Elt Ideal) ((c : Thread nD τ).loc main_v19) :=
  rowsDot (V m c main_v18) (V m c main_v16)

/-- The output's window is at row block `n / 16`, column block `(n / 8) % 2`. -/
theorem index_out : ∀ t : Fin cfg0.N, win0_2.index t (0 : Fin 2) = t.val / 16 ∧ win0_2.index t (1 : Fin 2) = t.val / 8 % 2 :=
  (by decide +kernel : ∀ t : Fin grid0.N, win0_2.index t (0 : Fin 2) = t.val / 16 ∧ win0_2.index t (1 : Fin 2) = t.val / 8 % 2)

/-- What a sweep's last point writes back is its tile of `flat`. -/
theorem flushed_eq (c : Dev nD) (t : Fin cfg0.N) (hf : (cfg0.win 2).flush t = true) :
    (dats m 0 c).flushed 2 t = ((cfg0.win 2).blk t).view.read (Elt Ideal) (flat m c) := by
  have h7 : t.val % 8 = 7 := (flush0_2 t).mp hf
  have hN : cfg0.N = 128 := N_0
  show (cfg0.win 2).cut (grid0.coords t) ((dats m 0 c).after 2 t) = _
  rw [after0_2]
  obtain ⟨n, hn⟩ := t
  obtain ⟨n', rfl⟩ : ∃ n', n = n' + 1 := ⟨n - 1, by dsimp only at h7; omega⟩
  have hi := index_out ⟨n' + 1, hn⟩
  funext j
  refine (Accum.out_at m c n' hn h7 ⟨(n' + 1) / 16, by omega⟩ ⟨(n' + 1) / 8 % 2, by omega⟩ rfl rfl j).trans ?_
  have e0 : (((cfg0.win 2).blk ⟨n' + 1, hn⟩).view.emb j) 0 = blockRow ⟨(n' + 1) / 16, by omega⟩ (j 0) :=
    Fin.ext (by
      show win0_2.index ⟨n' + 1, hn⟩ 0 * 1024 + 1 * (j 0).val = 1024 * ((n' + 1) / 16) + (j 0).val
      rw [hi.1]; dsimp only; omega)
  have e1 : (((cfg0.win 2).blk ⟨n' + 1, hn⟩).view.emb j) 1 = blockCol ⟨(n' + 1) / 8 % 2, by omega⟩ (j 1) :=
    Fin.ext (by
      show win0_2.index ⟨n' + 1, hn⟩ 1 * 2048 + 1 * (j 1).val = 2048 * ((n' + 1) / 8 % 2) + (j 1).val
      rw [hi.2]; dsimp only; omega)
  show _ = ∑ k : Fin 4096, products (V m c main_v18) (V m c main_v16)
    ((((cfg0.win 2).blk ⟨n' + 1, hn⟩).view.emb j) 0) ((((cfg0.win 2).blk ⟨n' + 1, hn⟩).view.emb j) 1) k
  rw [e0, e1]

/-- An entry of the result lies in a point's tile iff each coordinate lies in the tile's range. -/
theorem mem_blk (t : Fin cfg0.N) (i : S8192x4096.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v19).slice (win0_2.rect t)).set ↔ _
  rw [View.set_slice_whole, Rect.mem_set_unit]
  exact Iff.rfl

/-- Every entry lies in the tile written back at the last point of its sweep. -/
theorem cover (i : S8192x4096.Idx) :
    ∃ t : Fin cfg0.N, (cfg0.win 2).flush t = true ∧ i ∈ ((cfg0.win 2).blk t).view.set := by
  have hN : cfg0.N = 128 := N_0
  have hi0 : (i 0).val < 8192 := (i 0).isLt
  have hi1 : (i 1).val < 4096 := (i 1).isLt
  refine ⟨⟨16 * ((i 0).val / 1024) + 8 * ((i 1).val / 2048) + 7, by omega⟩, (flush0_2 _).mpr (by dsimp only; omega), ?_⟩
  have hi := index_out ⟨16 * ((i 0).val / 1024) + 8 * ((i 1).val / 2048) + 7, by omega⟩
  rw [mem_blk]
  intro a
  match a with
  | ⟨0, _⟩ =>
    show win0_2.index _ (0 : Fin 2) * 1024 ≤ (i 0).val ∧ (i 0).val < win0_2.index _ (0 : Fin 2) * 1024 + 1024
    rw [hi.1]; dsimp only; omega
  | ⟨1, _⟩ =>
    show win0_2.index _ (1 : Fin 2) * 2048 ≤ (i 1).val ∧ (i 1).val < win0_2.index _ (1 : Fin 2) * 2048 + 2048
    rw [hi.2]; dsimp only; omega

/-- So the result array ends holding `flat`. -/
theorem final (c : Dev nD) : (dats m 0 c).arrAt 2 cfg0.N = flat m c :=
  (dats m 0 c).arrAt_eq_of_cover 2 (flat m c) (flushed_eq m c) (cover)

end Cert.KernelIdeal.Whole

end
-- ==== Proof.KernelRun.lean ====
/-
  The kernel's run, read: its result is the layer at the reference's quantized weight.

  Row `2048 * b + s` of the activations the kernel is launched on is row (b, s) of the argument `x` (the flattening
  keeps row-major positions; narrowing is the identity over the extended reals), and the weight it is launched on is
  the quantized weight. The kernel leaves `flat`, and the program's last line regroups `flat`'s rows as (4, 2048):
  entry (b, s, o) of the result is `flat[2048 * b + s, o] = ∑ i, x[b, s, i] * wq[o, i]`.
-/
import proofs.«118551_j60679297958512_2_alg».proof.Proof.Whole

set_option maxRecDepth 16384

noncomputable section

open scoped BigOperators

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo Cert.QuantLinear
open Idealize.ShloMosaic.Pipeline (Dat)

variable (m : (ℓ : Loc nD τ sig) → Buf (Elt Ideal) ℓ) (ρ : Dev nD → PrngReg)

/-- Row `2048 * b + s` of the flattened activations. -/
abbrev flatRow (b : Fin 4) (s : Fin 2048) : Fin 8192 :=
  ⟨2048 * b.val + s.val, by have := b.isLt; have := s.isLt; omega⟩

/-- The activations the kernel reads, at (2048 * b + s, k): the argument at (b, s, k). -/
theorem acts_apply (c : Dev nD) (b : Fin 4) (s : Fin 2048) (k : Fin 4096) :
    V m c main_v18 (ix2 (flatRow b s) k) = m ((c : Thread nD τ).loc main_arg0) (ix3 b s k) := by
  rw [Inputs.acts_eq]
  show shapeCast S8192x4096 (m ((c : Thread nD τ).loc main_arg0)) shapeCasts_S4x2048x4096_S8192x4096 (ix2 (flatRow b s) k) = _
  refine shapeCast_apply _ _ _ _ ?_
  show ((⟨3, ![4, 2048, 4096]⟩ : Shape).rowMajor (ix3 b s k)).val = ((⟨2, ![8192, 4096]⟩ : Shape).rowMajor (ix2 (flatRow b s) k)).val
  rw [Shape.rowMajor_val_three, Shape.rowMajor_val_two]
  show (b.val * 2048 + s.val) * 4096 + k.val = (2048 * b.val + s.val) * 4096 + k.val
  omega

/-- The weight the kernel reads is the quantized weight. -/
theorem weight_apply (c : Dev nD) (j : S4096x4096.Idx) :
    V m c main_v16 j = quantized (m ((c : Thread nD τ).loc main_arg1)) j := by
  rw [Inputs.weight_eq]
  rfl

/-- An entry of the rows-against-rows product, over any two arrays. -/
theorem rowsDot_apply (A : (⟨2, ![8192, 4096]⟩ : Shape).Idx → EReal) (B : (⟨2, ![4096, 4096]⟩ : Shape).Idx → EReal)
    (r : Fin 8192) (o : Fin 4096) : rowsDot A B (ix2 r o) = ∑ k : Fin 4096, A (ix2 r k) * B (ix2 o k) := rfl

/-- So entry (2048 * b + s, o) of what the kernel leaves is entry (b, s, o) of the layer. -/
theorem flat_apply (c : Dev nD) (b : Fin 4) (s : Fin 2048) (o : Fin 4096) :
    flat m c (ix2 (flatRow b s) o)
      = linear (m ((c : Thread nD τ).loc main_arg0)) (quantized (m ((c : Thread nD τ).loc main_arg1))) (ix3 b s o) := by
  refine (rowsDot_apply (V m c main_v18) (V m c main_v16) (flatRow b s) o).trans ?_
  unfold linear
  refine Finset.sum_congr rfl fun k _ => ?_
  rw [acts_apply m c b s k, weight_apply m c (ix2 o k)]

/-- The program's last line regroups the rows: the result is the layer. -/
theorem tail_eq (c : Dev nD) :
    Pipeline.afterTail₀ cfgs (dats m) 0 (V0 m) [hostOps1] c main_v20
      = linear (m ((c : Thread nD τ).loc main_arg0)) (quantized (m ((c : Thread nD τ).loc main_arg1))) := by
  have hw : Pipeline.withArrays (cfgs 0).spec c (V0 m c) (fun w => (dats m 0 c).arrAt w (cfgs 0).N) (Proc.devRef .tc main_v19)
      = flat m c :=
    (Pipeline.withArrays_arr spec0 launch0.win.arr_inj c _ _ 2).trans (final m c)
  unfold Pipeline.afterTail₀
  show StableHlo.after hostOps1 _ (Proc.devRef .tc main_v20) = _
  after_results
  funext i
  show shapeCast S4x2048x4096 (Pipeline.withArrays (cfgs 0).spec c (V0 m c) (fun w => (dats m 0 c).arrAt w (cfgs 0).N)
    (Proc.devRef .tc main_v19)) shapeCasts_S8192x4096_S4x2048x4096 i = _
  rw [hw]
  obtain ⟨b, s, o, rfl⟩ : ∃ (b : Fin 4) (s : Fin 2048) (o : Fin 4096), i = ix3 b s o := ⟨i 0, i 1, i 2, eq_ix3 i⟩
  refine (shapeCast_apply (flat m c) shapeCasts_S8192x4096_S4x2048x4096 (ix3 b s o) (ix2 (flatRow b s) o) ?_).trans
    (flat_apply m c b s o)
  show ((⟨2, ![8192, 4096]⟩ : Shape).rowMajor (ix2 (flatRow b s) o)).val = ((⟨3, ![4, 2048, 4096]⟩ : Shape).rowMajor (ix3 b s o)).val
  rw [Shape.rowMajor_val_three, Shape.rowMajor_val_two]
  show (2048 * b.val + s.val) * 4096 + o.val = (b.val * 2048 + s.val) * 4096 + o.val
  omega

/-- The run, read: the result at the layer, the arguments unchanged. -/
theorem run : θ_run defs (onTc (τ := τ) (main (F := Ideal))) ⟨m, fun _ => 0, ρ⟩ fun r => ∀ c : Dev nD,
      r.2.mem ((c : Thread nD τ).loc main_v20)
        = linear (m ((c : Thread nD τ).loc main_arg0)) (quantized (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v20 (Pipeline.mem_restRefs_of main_v20 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Whole

end
-- ==== Proof.RefSide.lean ====
/-
  The reference's result is the layer.

  The reference quantizes the weight and takes one `dot_general` of the activations (contracting their last axis)
  with the quantized weight (contracting its last axis). Over the extended reals its entry (b, s, o) is the sum
  over `i` of `x[b, s, i] * wq[o, i]`, with no accumulation order left in it: the layer `linear` at the
  reference's own quantized weight.
-/
import proofs.«118551_j60679297958512_2_alg».proof.Proof.Spec
import proofs.«118551_j60679297958512_2_alg».proof.Proof.Gen.ReferenceIdeal.Read

noncomputable section

open scoped BigOperators

namespace Cert.ReferenceIdeal.RefValue

open Cert.ReferenceIdeal Cert.ReferenceIdeal.Read Idealize.ShloMosaic Idealize.ShloMosaic.ValueIdx Cert.QuantLinear

/-- The reference's last stage, read at every index. -/
theorem result_eq (x : (⟨S4x2048x4096, .f32⟩ : BufTy).Contents (Elt Ideal)) (w : (⟨S4096x4096, .f32⟩ : BufTy).Contents (Elt Ideal)) :
    val_main_v16 (F := Ideal) x w = linear x (val_main_v15 (F := Ideal) w) := by
  funext i
  rw [val_main_v16_apply]
  have el : ∀ k : Fin 4096, lidx_main_v16 i k = ix3 (i 0) (i 1) k := fun k => funext fun a => by
    match a with
    | ⟨0, _⟩ => rfl
    | ⟨1, _⟩ => rfl
    | ⟨2, _⟩ => rfl
  have er : ∀ k : Fin 4096, ridx_main_v16 i k = ix2 (i 2) k := fun k => funext fun a => by
    match a with
    | ⟨0, _⟩ => rfl
    | ⟨1, _⟩ => rfl
  unfold linear
  exact Finset.sum_congr rfl fun k _ => by rw [el k, er k]; rfl

end Cert.ReferenceIdeal.RefValue

end
-- ==== Proof.lean ====
/-
  The certificate of a linear layer against a ternary-quantized weight.

  Both programs quantize the weight argument by the same operations and then compute, for activations `x` of shape
  (4, 2048, 4096),  out[b, s, o] = ∑ i < 4096, x[b, s, i] * wq[o, i].  The reference takes the sum in one
  `dot_general`. The kernel flattens `x` to 8192 rows, narrows both operands to bf16 (the identity over the extended
  reals), and tiles the product: a grid of 8 × 2 × 8 points, each multiplying a (1024 × 512) block of activations by
  a (2048 × 512) block of the weight into a running total that is zeroed at the start of each sweep of the
  contraction axis and written out at its end. The two agree because addition of extended reals is associative and
  commutative with zero as unit: a sum over 4096 positions is the sum of its 8 blocks of 512, taken in order from zero.
  Nothing is distributed or cancelled, so the finiteness of the inputs is not used.

  The three frame claims are the generated frames (the reference's is its generated run with the result dropped);
  the idealization rewrote nothing, so `preserves` is `True`.
-/
import proofs.«118551_j60679297958512_2_alg».proof.Defs
import proofs.«118551_j60679297958512_2_alg».proof.Proof.Gen.Kernel
import proofs.«118551_j60679297958512_2_alg».proof.Proof.Gen.Kernel.Skeleton
import proofs.«118551_j60679297958512_2_alg».proof.Proof.Gen.Kernel.Launch
import proofs.«118551_j60679297958512_2_alg».proof.Proof.Gen.Kernel.Points
import proofs.«118551_j60679297958512_2_alg».proof.Proof.Gen.Kernel.Frame
import proofs.«118551_j60679297958512_2_alg».proof.Proof.Gen.KernelIdeal
import proofs.«118551_j60679297958512_2_alg».proof.Proof.Gen.KernelIdeal.Skeleton
import proofs.«118551_j60679297958512_2_alg».proof.Proof.Gen.KernelIdeal.Launch
import proofs.«118551_j60679297958512_2_alg».proof.Proof.Gen.KernelIdeal.Points
import proofs.«118551_j60679297958512_2_alg».proof.Proof.Gen.KernelIdeal.Frame
import proofs.«118551_j60679297958512_2_alg».proof.Proof.Gen.ReferenceIdeal
import proofs.«118551_j60679297958512_2_alg».proof.Proof.Gen.ReferenceIdeal.Run
import proofs.«118551_j60679297958512_2_alg».proof.Proof.Gen.ReferenceIdeal.Read
import proofs.«118551_j60679297958512_2_alg».proof.Proof.Gen.Pre_finite_inputs
import proofs.«118551_j60679297958512_2_alg».proof.Proof.KernelRun
import proofs.«118551_j60679297958512_2_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals both programs end at the layer of the activations and the quantized weight: the kernel by
    its run read back, the reference by its last stage read at every index, from arguments that agree. -/
theorem algebraic : Cert.algebraic_KernelIdeal_ReferenceIdeal := by
  intro m ρ m' ρ' _ hagree
  refine ⟨fun c => Cert.QuantLinear.linear (m ((c.tc : Thread Cert.KernelIdeal.nD Cert.KernelIdeal.τ).loc Cert.KernelIdeal.main_arg0))
      (Cert.KernelIdeal.Whole.quantized (m ((c.tc : Thread Cert.KernelIdeal.nD Cert.KernelIdeal.τ).loc Cert.KernelIdeal.main_arg1))),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
